-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x64 .f32) (main_arg1 : FVec F S16384x16384 .f32) (main_arg2 : FVec F S64x64 .f32) (main_arg3 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S64x16384 : Shape := ⟨2, ![64, 16384]⟩
abbrev S1x64 : Shape := ⟨2, ![1, 64]⟩
abbrev S256x16384 : Shape := ⟨2, ![256, 16384]⟩
abbrev S64x256 : Shape := ⟨2, ![64, 256]⟩
abbrev S64x1 : Shape := ⟨2, ![64, 1]⟩

abbrev nBuf : Space → Nat
  | .hbm => 8
  | .vmem => 9
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S64, .f32⟩
  | .hbm, ⟨4, _⟩ => ⟨S64x16384, .f32⟩
  | .hbm, ⟨5, _⟩ => ⟨S1x64, .f32⟩
  | .hbm, ⟨6, _⟩ => ⟨S64x16384, .f32⟩
  | .hbm, ⟨7, _⟩ => ⟨S16384x64, .f32⟩
  | .local _ .vmem, ⟨0, _⟩ => ⟨S64x16384, .f32⟩
  | .local _ .vmem, ⟨1, _⟩ => ⟨S64x64, .f32⟩
  | .local _ .vmem, ⟨2, _⟩ => ⟨S1x64, .f32⟩
  | .local _ .vmem, ⟨3, _⟩ => ⟨S256x16384, .f32⟩
  | .local _ .vmem, ⟨4, _⟩ => ⟨S256x16384, .f32⟩
  | .local _ .vmem, ⟨5, _⟩ => ⟨S64x256, .f32⟩
  | .local _ .vmem, ⟨6, _⟩ => ⟨S64x256, .f32⟩
  | .local _ .vmem, ⟨7, _⟩ => ⟨S64x16384, .bf16⟩
  | .local _ .vmem, ⟨8, _⟩ => ⟨S64x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S16384x64_S64x16384_1_0 : S16384x64.Transposes [1, 0] S64x16384
  shapeCasts_S64_S1x64 : S64.ShapeCasts S1x64
  transposes_S64x16384_S16384x64_1_0 : S64x16384.Transposes [1, 0] S16384x64
  inb_S64x64_S64x64_0_0 : ∀ a, (![0, 0] : Fin 2 → Nat) a + S64x64.size a ≤ S64x64.size a
  h_S64x64 : 0 < S64x64.numel
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  bitsLt_bf16_f32 : FTy.bits .bf16 < FTy.bits .f32
  packedbf16_S64x16384_S64x16384_0_0 : (Rect.unit (s := S64x16384) ![0, 0] S64x16384.size inb_S64x16384_S64x16384_0_0).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S256x16384_S256x16384_0_0 : ∀ a, (![0, 0] : Fin 2 → Nat) a + S256x16384.size a ≤ S256x16384.size a
  h_S256x16384 : 0 < S256x16384.numel
  broadcasts_S64x1_S64x256 : S64x1.Broadcasts S64x256
  inb_S64x256_S64x256_0_0 : ∀ a, (![0, 0] : Fin 2 → Nat) a + S64x256.size a ≤ S64x256.size a
  h_S64x256 : 0 < S64x256.numel
  dot_S64x64_S64x16384_S64x16384_0_0_1_1_n_n_wf : DotDims.WF S64x64 S64x16384 S64x16384 [0] [0] [1] [1] [] []
  dot_S64x16384_S256x16384_S64x256_1_1_0_0_n_n_wf : DotDims.WF S64x16384 S256x16384 S64x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S64x16384.size a
  hwx0_0 : ∀ i : grid0.Coords, EltTy.bits .f32 = 32 ∨ (Rect.block (s := S64x16384) S64x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x16384.size a ≤ S16384x16384.size a
  hwx0_3 : ∀ i : grid0.Coords, EltTy.bits .f32 = 32 ∨ (Rect.block (s := S16384x16384) S256x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x16384.size a
  hwx0_4 : ∀ i : grid0.Coords, EltTy.bits .f32 = 32 ∨ (Rect.block (s := S64x16384) S64x256.size (cc0_transform_4 i) (hinb0_4 i)).WholeWords (EltTy.packing .f32)

variable [Facts₀]

def dot_S64x64_S64x16384_S64x16384_0_0_1_1_n_n : DotDims S64x64 S64x16384 S64x16384 where
  lhsContracting := [0]
  rhsContracting := [0]
  lhsNonContracting := [1]
  rhsNonContracting := [1]
  lhsBatch := []
  rhsBatch := []
  wf := dot_S64x64_S64x16384_S64x16384_0_0_1_1_n_n_wf
def dot_S64x16384_S256x16384_S64x256_1_1_0_0_n_n : DotDims S64x16384 S256x16384 S64x256 where
  lhsContracting := [1]
  rhsContracting := [1]
  lhsNonContracting := [0]
  rhsNonContracting := [0]
  lhsBatch := []
  rhsBatch := []
  wf := dot_S64x16384_S256x16384_S64x256_1_1_0_0_n_n_wf

abbrev win0_0 : Pipeline.Window sig grid0 :=
  Pipeline.Window.ofSpec (Memref.whole main_call0_v0) S64x16384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x64 : Shape := ⟨2, ![16384, 64]⟩
abbrev S16384x16384 : Shape := ⟨2, ![16384, 16384]⟩
abbrev S64x64 : Shape := ⟨2, ![64, 64]⟩
abbrev S64 : Shape := ⟨1, ![64]⟩
abbrev S1x64 : Shape := ⟨2, ![1, 64]⟩

abbrev nBuf : Space → Nat
  | .hbm => 9
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S64x64, .f32⟩
  | .hbm, ⟨3, _⟩ => ⟨S64, .f32⟩
  | .hbm, ⟨4, _⟩ => ⟨S16384x64, .f32⟩
  | .hbm, ⟨5, _⟩ => ⟨S16384x64, .f32⟩
  | .hbm, ⟨6, _⟩ => ⟨S1x64, .f32⟩
  | .hbm, ⟨7, _⟩ => ⟨S16384x64, .f32⟩
  | .hbm, ⟨8, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.Pieces.lean ====
/-
  What one run of the kernel body leaves behind, as values.

  The body has two cases. At the grid's first point it fills the two carried scratch buffers — the transposed
  support `sT = wᵀ · xᵀ` (kept in the narrow format) and the bias as a column — and then computes the output
  block from what it has just stored. At every later point it stores nothing into the scratch and computes the
  output block from what the scratch already holds. Each buffer is written by ONE store through its whole
  rectangle, and each load reads a whole buffer, so what a buffer ends holding is that store's payload of the
  loaded contents; a load that follows a store into the same buffer reads the stored payload back.
-/
import proofs.«163305_g12386685681967_cont_sun_m_1327_22_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A LATER POINT's output block: the product-and-bias payload of the carried support `xs0`, the point's block of
    the adjacency matrix `x3` and the carried bias column `xs1`. -/
theorem out_B (c : Dev nD) (i : grid0.Coords) (a1 : Memref sig .tc .vmem S64x16384 .f32) (h1 : a1.IsWhole) (a2 : Memref sig .tc .vmem S64x64 .f32) (h2 : a2.IsWhole) (a3 : Memref sig .tc .vmem S1x64 .f32) (h3 : a3.IsWhole) (a4 : Memref sig .tc .vmem S256x16384 .f32) (h4 : a4.IsWhole) (a5 : Memref sig .tc .vmem S64x256 .f32) (h5 : a5.IsWhole) (a6 : Memref sig .tc .vmem S64x16384 .bf16) (h6 : a6.IsWhole) (a7 : Memref sig .tc .vmem S64x1 .f32) (h7 : a7.IsWhole) (hc : ¬cond0_0 i) (x0 : Vec F S64x16384 .f32) (x1 : Vec F S64x64 .f32) (x2 : Vec F S1x64 .f32) (x3 : Vec F S256x16384 .f32) (xs0 : Vec F S64x16384 .bf16) (xs1 : Vec F S64x1 .f32) :
    out0_B_4 c i a1 h1 a2 h2 a3 h3 a4 h4 a5 h5 a6 h6 a7 h7 hc x0 x1 x2 x3 xs0 xs1 = k0_pay3 xs0 x3 xs1 := by
  unfold out0_B_4
  rw [View.read_writes_eq_canon _ _ _ (cover0_B_4 c i a1 h1 a2 h2 a3 h3 a4 h4 a5 h5 a6 h6 a7 h7 hc x0 x1 x2 x3 xs0 xs1)]
  unfold kernelRun0_B
  dsimp only
  rw [View.canon_unit_zero hz]
  simp only [View.readAt_eq_ld, h6.read_unread, h4.read_unread, h7.read_unread,
    View.ld_unit_zero (S := S64x16384) hz, View.ld_unit_zero (S := S256x16384) hz, View.ld_unit_zero (S := S64x1) hz]

/-- The FIRST POINT leaves in the support scratch the payload `wᵀ · xᵀ` of the weight block `x1` and the
    transposed-input block `x0`. -/
theorem support_A (c : Dev nD) (i : grid0.Coords) (a1 : Memref sig .tc .vmem S64x16384 .f32) (h1 : a1.IsWhole) (a2 : Memref sig .tc .vmem S64x64 .f32) (h2 : a2.IsWhole) (a3 : Memref sig .tc .vmem S1x64 .f32) (h3 : a3.IsWhole) (a4 : Memref sig .tc .vmem S256x16384 .f32) (h4 : a4.IsWhole) (a5 : Memref sig .tc .vmem S64x256 .f32) (h5 : a5.IsWhole) (a6 : Memref sig .tc .vmem S64x16384 .bf16) (h6 : a6.IsWhole) (a7 : Memref sig .tc .vmem S64x1 .f32) (h7 : a7.IsWhole) (hc : cond0_0 i) (x0 : Vec F S64x16384 .f32) (x1 : Vec F S64x64 .f32) (x2 : Vec F S1x64 .f32) (x3 : Vec F S256x16384 .f32) :
    sout0_A_0 c i a1 h1 a2 h2 a3 h3 a4 h4 a5 h5 a6 h6 a7 h7 hc x0 x1 x2 x3 = k0_pay1 x1 x0 := by
  unfold sout0_A_0
  rw [View.read_writes_eq_canon _ _ _ (scover0_A_0 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h2.read_unread, h1.read_unread,
    View.ld_unit_zero (S := S64x16384) hz, View.ld_unit_zero (S := S64x64) hz]

/-- The FIRST POINT leaves in the bias scratch the bias row `x2` turned into a column. -/
theorem bias_A (c : Dev nD) (i : grid0.Coords) (a1 : Memref sig .tc .vmem S64x16384 .f32) (h1 : a1.IsWhole) (a2 : Memref sig .tc .vmem S64x64 .f32) (h2 : a2.IsWhole) (a3 : Memref sig .tc .vmem S1x64 .f32) (h3 : a3.IsWhole) (a4 : Memref sig .tc .vmem S256x16384 .f32) (h4 : a4.IsWhole) (a5 : Memref sig .tc .vmem S64x256 .f32) (h5 : a5.IsWhole) (a6 : Memref sig .tc .vmem S64x16384 .bf16) (h6 : a6.IsWhole) (a7 : Memref sig .tc .vmem S64x1 .f32) (h7 : a7.IsWhole) (hc : cond0_0 i) (x0 : Vec F S64x16384 .f32) (x1 : Vec F S64x64 .f32) (x2 : Vec F S1x64 .f32) (x3 : Vec F S256x16384 .f32) :
    sout0_A_1 c i a1 h1 a2 h2 a3 h3 a4 h4 a5 h5 a6 h6 a7 h7 hc x0 x1 x2 x3 = k0_pay2 x2 := by
  unfold sout0_A_1
  rw [View.read_writes_eq_canon _ _ _ (scover0_A_1 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h3.read_unread, View.ld_unit_zero (S := S1x64) hz]

/-- The FIRST POINT's output block: the same product-and-bias payload, of the support and the bias column it
    has just stored (read back) and the point's block of the adjacency matrix. -/
theorem out_A (c : Dev nD) (i : grid0.Coords) (a1 : Memref sig .tc .vmem S64x16384 .f32) (h1 : a1.IsWhole) (a2 : Memref sig .tc .vmem S64x64 .f32) (h2 : a2.IsWhole) (a3 : Memref sig .tc .vmem S1x64 .f32) (h3 : a3.IsWhole) (a4 : Memref sig .tc .vmem S256x16384 .f32) (h4 : a4.IsWhole) (a5 : Memref sig .tc .vmem S64x256 .f32) (h5 : a5.IsWhole) (a6 : Memref sig .tc .vmem S64x16384 .bf16) (h6 : a6.IsWhole) (a7 : Memref sig .tc .vmem S64x1 .f32) (h7 : a7.IsWhole) (hc : cond0_0 i) (x0 : Vec F S64x16384 .f32) (x1 : Vec F S64x64 .f32) (x2 : Vec F S1x64 .f32) (x3 : Vec F S256x16384 .f32) :
    out0_A_4 c i a1 h1 a2 h2 a3 h3 a4 h4 a5 h5 a6 h6 a7 h7 hc x0 x1 x2 x3 = k0_pay3 (k0_pay1 x1 x0) x3 (k0_pay2 x2) := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz, View.readCov_unit_zero (S := S64x16384) _ hz, View.readCov_unit_zero (S := S64x1) _ hz]
  simp only [View.readAt_eq_ld, h2.read_unread, h1.read_unread, h3.read_unread, h4.read_unread,
    View.ld_unit_zero (S := S64x16384) hz, View.ld_unit_zero (S := S64x64) hz, View.ld_unit_zero (S := S1x64) hz,
    View.ld_unit_zero (S := S256x16384) hz]

end Cert.KernelIdeal.Pieces

end
-- ==== Proof.Carried.lean ====
/-
  What the two carried scratch buffers and the output's staging buffer hold after every grid point.

  Only the first point writes the scratch: the transposed support, computed from the weight block and the
  transposed-input block that point finds, and the bias column, from the bias row it finds. Every later point
  leaves both as they are. So after ANY point the scratch holds those two first-point values, and the output's
  staging buffer holds the product-and-bias payload of them and of that point's own block of the adjacency matrix
  — by induction on the point, the first point being the base case.
-/
import proofs.«163305_g12386685681967_cont_sun_m_1327_22_alg».proof.Proof.Gen.KernelIdeal.Frame
import proofs.«163305_g12386685681967_cont_sun_m_1327_22_alg».proof.Proof.Pieces

noncomputable section

open Idealize.ShloMosaic Idealize.ShloMosaic.TcCoe Idealize.SL.Sem

namespace Cert.KernelIdeal.Carried

open Cert.KernelIdeal Cert.KernelIdeal.Gen

variable {F : FTy → Type} [FloatOps F]
variable (m : (ℓ : Loc nD τ sig) → Buf (Elt F) ℓ)

/-- The grid's first point. -/
abbrev first : Fin cfg0.N := ⟨0, by rw [show cfg0.N = 64 from N_0]; decide⟩

/-- The transposed support the first point stores. -/
def supp (c : Dev nD) : Vec F S64x16384 .bf16 := k0_pay1 (iblk m c 1 first) (iblk m c 0 first)

/-- The bias column the first point stores. -/
def bcol (c : Dev nD) : Vec F S64x1 .f32 := k0_pay2 (iblk m c 2 first)

/-- After point `n`: the output's staging buffer holds the payload of the carried support, the point's adjacency
    block and the carried bias column; the two scratch buffers hold the first point's values. -/
theorem outsAt_eq (c : Dev nD) : ∀ (n : ℕ) (h : n < cfg0.N),
    outsAt0 m c n h = (k0_pay3 (supp m c) (iblk m c 3 ⟨n, h⟩) (bcol m c), supp m c, bcol m c)
  | 0, h => by
    rw [outsAt0_A m c ⟨0, h⟩ rfl, Pieces.out_A, Pieces.support_A, Pieces.bias_A]
    rfl
  | n + 1, h => by
    have hN : cfg0.N = 64 := N_0
    have hB : ¬(⟨n + 1, h⟩ : Fin cfg0.N).val % 64 = 0 := by dsimp only; omega
    rw [outsAt0_B m c ⟨n + 1, h⟩ hB, Pieces.out_B]
    unfold sout0_B_0 sout0_B_1
    show (k0_pay3 (outsAt0 m c n _).2.1 (iblk m c 3 ⟨n + 1, h⟩) (outsAt0 m c n _).2.2,
      (outsAt0 m c n _).2.1, (outsAt0 m c n _).2.2) = _
    rw [outsAt_eq c n]

end Cert.KernelIdeal.Carried

end
-- ==== Proof.Payloads.lean ====
/-
  The body's three pure payloads read at one index, on the extended reals.

  The first is a matrix product contracted along the LEADING axis of both operands, `sT[o, n] = Σ_d w[d, o] · xᵀ[d, n]`,
  narrowed to the short float format (the identity here). The second turns the bias row into a column. The third
  is a matrix product contracted along the TRAILING axis of both operands, `Σ_n sT[o, n] · adj_blk[r, n]`, plus the
  bias column broadcast along the block's 256 columns. A product into a zero accumulator is just the sum over the
  contraction index, re-indexed here to the contracted axis's coordinate.
-/
import proofs.«163305_g12386685681967_cont_sun_m_1327_22_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payloads

open Cert.KernelIdeal Cert.KernelIdeal.Gen

/-! ## The first product: both operands contracted along their LEADING axis -/

theorem dot1_lhs0 (j : S64x16384.Idx) (q : dot_S64x64_S64x16384_S64x16384_0_0_1_1_n_n.contr.Idx) :
    (dot_S64x64_S64x16384_S64x16384_0_0_1_1_n_n.lhsIdx j q 0).val = (q ⟨0, by decide⟩).val :=
  dot_S64x64_S64x16384_S64x16384_0_0_1_1_n_n.lhsIdx_val_of_single rfl j q
theorem dot1_lhs1 (j : S64x16384.Idx) (q : dot_S64x64_S64x16384_S64x16384_0_0_1_1_n_n.contr.Idx) :
    (dot_S64x64_S64x16384_S64x16384_0_0_1_1_n_n.lhsIdx j q 1).val = (j 0).val := by
  unfold DotDims.lhsIdx
  rw [dif_neg (show ¬(1 : Fin S64x64.rank) ∈ dot_S64x64_S64x16384_S64x16384_0_0_1_1_n_n.lhsBatch by decide), dif_pos (show (1 : Fin S64x64.rank) ∈ dot_S64x64_S64x16384_S64x16384_0_0_1_1_n_n.lhsNonContracting by decide)]
  rfl
theorem dot1_rhs0 (j : S64x16384.Idx) (q : dot_S64x64_S64x16384_S64x16384_0_0_1_1_n_n.contr.Idx) :
    (dot_S64x64_S64x16384_S64x16384_0_0_1_1_n_n.rhsIdx j q 0).val = (q ⟨0, by decide⟩).val :=
  dot_S64x64_S64x16384_S64x16384_0_0_1_1_n_n.rhsIdx_val_of_single rfl j q
theorem dot1_rhs1 (j : S64x16384.Idx) (q : dot_S64x64_S64x16384_S64x16384_0_0_1_1_n_n.contr.Idx) :
    (dot_S64x64_S64x16384_S64x16384_0_0_1_1_n_n.rhsIdx j q 1).val = (j 1).val := by
  unfold DotDims.rhsIdx
  rw [dif_neg (show ¬(1 : Fin S64x16384.rank) ∈ dot_S64x64_S64x16384_S64x16384_0_0_1_1_n_n.rhsBatch by decide), dif_pos (show (1 : Fin S64x16384.rank) ∈ dot_S64x64_S64x16384_S64x16384_0_0_1_1_n_n.rhsNonContracting by decide)]
  rfl

/-- The transposed support at `(o, n)`: the sum over the input feature `d` of `w[d, o] · xᵀ[d, n]`; the change to
    the narrow format is the identity on the extended reals. -/
theorem supportT_apply (W : Vec Ideal S64x64 .f32) (XT : Vec Ideal S64x16384 .f32) (o : Fin 64) (n : Fin 16384) :
    k0_pay1 (F := Ideal) W XT (ix2 o n) = ∑ d : Fin 64, W (ix2 d o) * XT (ix2 d n) := by
  unfold k0_pay1
  rw [shapeCast_self, shapeCast_self, truncf_apply]
  simp only [matmul]
  rw [Ideal.matmul_constant_zero_apply, ← Equiv.sum_comp (contrEquiv1 dot_S64x64_S64x16384_S64x16384_0_0_1_1_n_n 64 rfl rfl).symm]
  refine Finset.sum_congr rfl fun k _ => ?_
  have hk := contrEquiv1_symm_val dot_S64x64_S64x16384_S64x16384_0_0_1_1_n_n 64 rfl rfl k
  have el : dot_S64x64_S64x16384_S64x16384_0_0_1_1_n_n.lhsIdx (ix2 o n) ((contrEquiv1 dot_S64x64_S64x16384_S64x16384_0_0_1_1_n_n 64 rfl rfl).symm k) = ix2 k o := funext fun a => Fin.ext (by
    match a with
    | ⟨0, _⟩ => exact (dot1_lhs0 _ _).trans hk
    | ⟨1, _⟩ => exact dot1_lhs1 _ _)
  have er : dot_S64x64_S64x16384_S64x16384_0_0_1_1_n_n.rhsIdx (ix2 o n) ((contrEquiv1 dot_S64x64_S64x16384_S64x16384_0_0_1_1_n_n 64 rfl rfl).symm k) = ix2 k n := funext fun a => Fin.ext (by
    match a with
    | ⟨0, _⟩ => exact (dot1_rhs0 _ _).trans hk
    | ⟨1, _⟩ => exact dot1_rhs1 _ _)
  rw [el, er]

/-! ## The bias row turned into a column -/

/-- The bias column at row `o` (its one column) is the bias row's entry `o`. -/
theorem biasCol_apply (b : Vec Ideal S1x64 .f32) (o : Fin 64) (u : Fin 1) :
    k0_pay2 (F := Ideal) b (ix2 o u) = b (ix2 (0 : Fin 1) o) := by
  unfold k0_pay2
  rw [shapeCast_self, shapeCast_self]
  obtain rfl : u = 0 := Subsingleton.elim _ _
  exact transpose_ix2_apply b _ o 0

/-! ## The second product: both operands contracted along their TRAILING axis, and the bias column added -/

theorem dot2_lhs0 (j : S64x256.Idx) (q : dot_S64x16384_S256x16384_S64x256_1_1_0_0_n_n.contr.Idx) :
    (dot_S64x16384_S256x16384_S64x256_1_1_0_0_n_n.lhsIdx j q 0).val = (j 0).val := by
  unfold DotDims.lhsIdx
  rw [dif_neg (show ¬(0 : Fin S64x16384.rank) ∈ dot_S64x16384_S256x16384_S64x256_1_1_0_0_n_n.lhsBatch by decide), dif_pos (show (0 : Fin S64x16384.rank) ∈ dot_S64x16384_S256x16384_S64x256_1_1_0_0_n_n.lhsNonContracting by decide)]
  rfl
theorem dot2_lhs1 (j : S64x256.Idx) (q : dot_S64x16384_S256x16384_S64x256_1_1_0_0_n_n.contr.Idx) :
    (dot_S64x16384_S256x16384_S64x256_1_1_0_0_n_n.lhsIdx j q 1).val = (q ⟨0, by decide⟩).val :=
  dot_S64x16384_S256x16384_S64x256_1_1_0_0_n_n.lhsIdx_val_of_single rfl j q
theorem dot2_rhs0 (j : S64x256.Idx) (q : dot_S64x16384_S256x16384_S64x256_1_1_0_0_n_n.contr.Idx) :
    (dot_S64x16384_S256x16384_S64x256_1_1_0_0_n_n.rhsIdx j q 0).val = (j 1).val := by
  unfold DotDims.rhsIdx
  rw [dif_neg (show ¬(0 : Fin S256x16384.rank) ∈ dot_S64x16384_S256x16384_S64x256_1_1_0_0_n_n.rhsBatch by decide), dif_pos (show (0 : Fin S256x16384.rank) ∈ dot_S64x16384_S256x16384_S64x256_1_1_0_0_n_n.rhsNonContracting by decide)]
  rfl
theorem dot2_rhs1 (j : S64x256.Idx) (q : dot_S64x16384_S256x16384_S64x256_1_1_0_0_n_n.contr.Idx) :
    (dot_S64x16384_S256x16384_S64x256_1_1_0_0_n_n.rhsIdx j q 1).val = (q ⟨0, by decide⟩).val :=
  dot_S64x16384_S256x16384_S64x256_1_1_0_0_n_n.rhsIdx_val_of_single rfl j q

/-- A column `[a, 1]` broadcast along a new trailing extent reads, at `(p, q)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The output block at `(o, r)`: the sum over the node `n` of `sT[o, n] · adj_blk[r, n]`, plus the bias column's
    entry `o`. -/
theorem outBlock_apply (S : Vec Ideal S64x16384 .bf16) (A : Vec Ideal S256x16384 .f32) (B : Vec Ideal S64x1 .f32) (o : Fin 64) (r : Fin 256) :
    k0_pay3 (F := Ideal) S A B (ix2 o r) = (∑ n : Fin 16384, S (ix2 o n) * A (ix2 r n)) + B (ix2 o (0 : Fin 1)) := by
  unfold k0_pay3
  rw [addf_apply, broadcastTo_a1_ab_apply]
  refine congrArg (· + B (ix2 o (0 : Fin 1))) ?_
  simp only [matmul]
  rw [Ideal.matmul_constant_zero_apply, ← Equiv.sum_comp (contrEquiv1 dot_S64x16384_S256x16384_S64x256_1_1_0_0_n_n 16384 rfl rfl).symm]
  refine Finset.sum_congr rfl fun k _ => ?_
  have hk := contrEquiv1_symm_val dot_S64x16384_S256x16384_S64x256_1_1_0_0_n_n 16384 rfl rfl k
  have el : dot_S64x16384_S256x16384_S64x256_1_1_0_0_n_n.lhsIdx (ix2 o r) ((contrEquiv1 dot_S64x16384_S256x16384_S64x256_1_1_0_0_n_n 16384 rfl rfl).symm k) = ix2 o k := funext fun a => Fin.ext (by
    match a with
    | ⟨0, _⟩ => exact dot2_lhs0 _ _
    | ⟨1, _⟩ => exact (dot2_lhs1 _ _).trans hk)
  have er : dot_S64x16384_S256x16384_S64x256_1_1_0_0_n_n.rhsIdx (ix2 o r) ((contrEquiv1 dot_S64x16384_S256x16384_S64x256_1_1_0_0_n_n 16384 rfl rfl).symm k) = ix2 r k := funext fun a => Fin.ext (by
    match a with
    | ⟨0, _⟩ => exact dot2_rhs0 _ _
    | ⟨1, _⟩ => exact (dot2_rhs1 _ _).trans hk)
  rw [el, er]

end Cert.KernelIdeal.Payloads

end
-- ==== Proof.Spec.lean ====
/-
  The graph-convolution layer `adj · (x · w) + bias` as one function of its four argument arrays, index by index
  on the extended reals: x is 16384 × 64, adj is 16384 × 16384, w is 64 × 64 and the bias has 64 entries.

  The two programs multiply the same factors in opposite orders — the kernel works in the transposed domain, so it
  forms `w[d, o] · x[n, d]` and `support[n, o] · adj[m, n]` where the plain formula has `x[n, d] · w[d, o]` and
  `adj[m, n] · support[n, o]`. On the extended reals the product commutes at every value, the infinities
  included, so the sums agree term by term: no distributivity, no cancelling, and therefore no finiteness of the
  inputs is needed.
-/
import Idealize.ShloMosaic.PureOps.Ideal
import Idealize.ShloMosaic.Lib.ValueIdx

noncomputable section

open Idealize.ShloMosaic Idealize.ShloMosaic.ValueIdx

namespace Cert.GraphConv

/-- The support `x · w` at row `n`, column `o`: the sum over the 64 input features. -/
def support (x : (⟨2, ![16384, 64]⟩ : Shape).Idx → EReal) (w : (⟨2, ![64, 64]⟩ : Shape).Idx → EReal)
    (n : Fin 16384) (o : Fin 64) : EReal :=
  ∑ d : Fin 64, x (ix2 n d) * w (ix2 d o)

/-- The layer's value at node `r`, output feature `o`: the adjacency row times the support column, plus the bias. -/
def layer (x : (⟨2, ![16384, 64]⟩ : Shape).Idx → EReal) (adj : (⟨2, ![16384, 16384]⟩ : Shape).Idx → EReal)
    (w : (⟨2, ![64, 64]⟩ : Shape).Idx → EReal) (b : (⟨1, ![64]⟩ : Shape).Idx → EReal) (r : Fin 16384) (o : Fin 64) : EReal :=
  (∑ n : Fin 16384, adj (ix2 r n) * support x w n o) + b (ix1 o)

/-- The layer's whole result array. -/
def result (x : (⟨2, ![16384, 64]⟩ : Shape).Idx → EReal) (adj : (⟨2, ![16384, 16384]⟩ : Shape).Idx → EReal)
    (w : (⟨2, ![64, 64]⟩ : Shape).Idx → EReal) (b : (⟨1, ![64]⟩ : Shape).Idx → EReal) :
    (⟨2, ![16384, 64]⟩ : Shape).Idx → EReal :=
  fun i => layer x adj w b (i 0) (i 1)

/-- The support with its factors in the transposed order. -/
theorem support_comm (x : (⟨2, ![16384, 64]⟩ : Shape).Idx → EReal) (w : (⟨2, ![64, 64]⟩ : Shape).Idx → EReal)
    (n : Fin 16384) (o : Fin 64) : ∑ d : Fin 64, w (ix2 d o) * x (ix2 n d) = support x w n o :=
  Finset.sum_congr rfl fun _ _ => mul_comm _ _

/-- The layer with the support on the left of each product and its own factors in the transposed order. -/
theorem layer_comm (x : (⟨2, ![16384, 64]⟩ : Shape).Idx → EReal) (adj : (⟨2, ![16384, 16384]⟩ : Shape).Idx → EReal)
    (w : (⟨2, ![64, 64]⟩ : Shape).Idx → EReal) (b : (⟨1, ![64]⟩ : Shape).Idx → EReal) (r : Fin 16384) (o : Fin 64) :
    (∑ n : Fin 16384, (∑ d : Fin 64, w (ix2 d o) * x (ix2 n d)) * adj (ix2 r n)) + b (ix1 o) = layer x adj w b r o := by
  unfold layer
  refine congrArg (· + b (ix1 o)) (Finset.sum_congr rfl fun n _ => ?_)
  rw [support_comm, mul_comm]

end Cert.GraphConv

end
-- ==== Proof.Blocks.lean ====
/-
  From blocks to the whole array: what the kernel's region leaves in its output array.

  The region's operands are the transposed input `xᵀ` (a host transpose of `x` before the region), the weight, the
  bias as one row (a host reshape), and the adjacency matrix. The first three windows never move: at every point
  their block is the whole operand. The adjacency window's block at point `t` is rows `256·t … 256·t + 255`, and the
  output window's block at point `t` is columns `256·t … 256·t + 255` of the transposed result. So the first point's
  carried support is `sT[o, n] = Σ_d w[d, o] · x[n, d]`, its bias column is the bias, and what point `t` writes back
  at `(o, r)` is the layer's value at node `256·t + r`, output feature `o` — the transposed layer result read through
  the point's block. The 64 blocks tile the array (the point that covers column `j` is `j / 256`), so the array
  ends holding the transposed layer result.
-/
import proofs.«163305_g12386685681967_cont_sun_m_1327_22_alg».proof.Proof.Gen.KernelIdeal.Frame
import proofs.«163305_g12386685681967_cont_sun_m_1327_22_alg».proof.Proof.Carried
import proofs.«163305_g12386685681967_cont_sun_m_1327_22_alg».proof.Proof.Payloads
import proofs.«163305_g12386685681967_cont_sun_m_1327_22_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Blocks

open Cert.KernelIdeal Cert.KernelIdeal.Gen Cert.KernelIdeal.Carried

variable (m : (ℓ : Loc nD τ sig) → Buf (Elt Ideal) ℓ)

/-! ## The arguments, and the operands as the region finds them -/

/-- The four argument arrays at launch, as arrays of extended reals: `x`, the adjacency matrix, the weight, the bias. -/
abbrev argX (c : Dev nD) : (⟨2, ![16384, 64]⟩ : Shape).Idx → EReal := m ((c : Thread nD τ).loc main_arg0)
abbrev argAdj (c : Dev nD) : (⟨2, ![16384, 16384]⟩ : Shape).Idx → EReal := m ((c : Thread nD τ).loc main_arg1)
abbrev argW (c : Dev nD) : (⟨2, ![64, 64]⟩ : Shape).Idx → EReal := m ((c : Thread nD τ).loc main_arg2)
abbrev argBias (c : Dev nD) : (⟨1, ![64]⟩ : Shape).Idx → EReal := m ((c : Thread nD τ).loc main_arg3)

/-- The region's first operand is `x` transposed. -/
theorem xT_eq (c : Dev nD) : (V m c main_call0_v0 : S64x16384.Idx → EReal)
    = transpose S64x16384 [1, 0] (m ((c : Thread nD τ).loc main_arg0)) transposes_S16384x64_S64x16384_1_0 := by
  show StableHlo.after hostOps0 (fun b => m (c, b)) (Proc.devRef .tc main_call0_v0) = _
  after_results
  rfl

/-- Its third operand is the bias as one row. -/
theorem biasRow_eq (c : Dev nD) : (V m c main_call0_v1 : S1x64.Idx → EReal)
    = shapeCast S1x64 (m ((c : Thread nD τ).loc main_arg3)) shapeCasts_S64_S1x64 := by
  show StableHlo.after hostOps0 (fun b => m (c, b)) (Proc.devRef .tc main_call0_v1) = _
  after_results
  rfl

/-! ## The windows' blocks -/

/-- The printed index maps over the 64 grid points: the first three windows stay at block (0, 0); the adjacency
    window's row block and the output window's column block are the point's number. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

/-- The transposed-input window's block is the whole of `xᵀ`. -/
theorem xTblk (c : Dev nD) (t : Fin cfg0.N) : (iblk m c 0 t : Vec Ideal S64x16384 .f32)
    = transpose S64x16384 [1, 0] (m ((c : Thread nD τ).loc main_arg0)) transposes_S16384x64_S64x16384_1_0 := by
  obtain ⟨e0, e1, -⟩ := idx_facts t
  funext y
  unfold iblk
  rw [View.read_apply]
  show V m c main_call0_v0 _ = _
  rw [← xT_eq m c]
  congr 1
  funext a
  apply Fin.ext
  match a with
  | ⟨0, _⟩ => show win0_0.index t (0 : Fin 2) * 64 + 1 * (y 0).val = (y 0).val; rw [e0]; omega
  | ⟨1, _⟩ => show win0_0.index t (1 : Fin 2) * 16384 + 1 * (y 1).val = (y 1).val; rw [e1]; omega

/-- The weight window's block is the whole weight. -/
theorem wblk (c : Dev nD) (t : Fin cfg0.N) : (iblk m c 1 t : Vec Ideal S64x64 .f32) = (m ((c : Thread nD τ).loc main_arg2)) := by
  obtain ⟨-, -, e0, e1, -⟩ := idx_facts t
  funext y
  unfold iblk
  rw [View.read_apply]
  show V m c main_arg2 _ = _
  rw [V_main_arg2]
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

/-- The bias window's block is the whole bias row. -/
theorem bblk (c : Dev nD) (t : Fin cfg0.N) : (iblk m c 2 t : Vec Ideal S1x64 .f32)
    = shapeCast S1x64 (m ((c : Thread nD τ).loc main_arg3)) shapeCasts_S64_S1x64 := by
  obtain ⟨-, -, -, -, e0, e1, -⟩ := idx_facts t
  funext y
  unfold iblk
  rw [View.read_apply]
  show V m c main_call0_v1 _ = _
  rw [← biasRow_eq m c]
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The adjacency window's block at point `t`, row `r`, is row `256·t + r` of the adjacency matrix. -/
theorem ablk (c : Dev nD) (t : Fin cfg0.N) (r : Fin 256) (n : Fin 16384) (hrow : 256 * t.val + r.val < 16384) :
    (iblk m c 3 t : Vec Ideal S256x16384 .f32) (ix2 r n) = (m ((c : Thread nD τ).loc main_arg1)) (ix2 ⟨256 * t.val + r.val, hrow⟩ n) := by
  obtain ⟨-, -, -, -, -, -, e0, e1, -⟩ := idx_facts t
  unfold iblk
  rw [View.read_apply]
  show V m c main_arg1 _ = _
  rw [V_main_arg1]
  congr 1
  funext a
  apply Fin.ext
  match a with
  | ⟨0, _⟩ => show win0_3.index t (0 : Fin 2) * 256 + 1 * r.val = 256 * t.val + r.val; rw [e0]; omega
  | ⟨1, _⟩ => show win0_3.index t (1 : Fin 2) * 16384 + 1 * n.val = n.val; rw [e1]; omega

/-! ## The carried values, read at an index -/

/-- The carried support at `(o, n)`: `Σ_d w[d, o] · x[n, d]`. -/
theorem supp_apply (c : Dev nD) (o : Fin 64) (n : Fin 16384) :
    supp m c (ix2 o n) = ∑ d : Fin 64, argW m c (ix2 d o) * argX m c (ix2 n d) := by
  unfold supp
  rw [wblk, xTblk]
  refine (Payloads.supportT_apply _ _ o n).trans (Finset.sum_congr rfl fun d _ => ?_)
  rw [transpose_ix2_apply]

/-- The carried bias column at row `o`: `bias[o]`. -/
theorem bcol_apply (c : Dev nD) (o : Fin 64) : bcol m c (ix2 o (0 : Fin 1)) = (m ((c : Thread nD τ).loc main_arg3)) (ix1 o) := by
  unfold bcol
  rw [bblk]
  exact (Payloads.biasCol_apply _ o 0).trans (shapeCast_a_1a_apply _ _ 0 o)

/-! ## What a point writes back -/

/-- The product-and-bias payload at `(o, r)` of a support that is `Σ_d w[d, o] · x[n, d]`, an adjacency block whose row
    `r` is row `row` of the matrix, and a bias column that is the bias: the layer at node `row`, feature `o`. -/
theorem block_value (X : (⟨2, ![16384, 64]⟩ : Shape).Idx → EReal) (AA : (⟨2, ![16384, 16384]⟩ : Shape).Idx → EReal)
    (W : (⟨2, ![64, 64]⟩ : Shape).Idx → EReal) (Bi : (⟨1, ![64]⟩ : Shape).Idx → EReal)
    (S : Vec Ideal S64x16384 .bf16) (A : Vec Ideal S256x16384 .f32) (B : Vec Ideal S64x1 .f32)
    (row : Fin 16384) (o : Fin 64) (r : Fin 256)
    (hS : ∀ n : Fin 16384, S (ix2 o n) = ∑ d : Fin 64, W (ix2 d o) * X (ix2 n d))
    (hA : ∀ n : Fin 16384, A (ix2 r n) = AA (ix2 row n))
    (hB : B (ix2 o (0 : Fin 1)) = Bi (ix1 o)) :
    k0_pay3 (F := Ideal) S A B (ix2 o r) = Cert.GraphConv.layer X AA W Bi row o := by
  rw [Payloads.outBlock_apply, hB, ← Cert.GraphConv.layer_comm]
  refine congrArg (· + Bi (ix1 o)) (Finset.sum_congr rfl fun n _ => ?_)
  rw [hS n, hA n]

/-- The transposed layer result: at `(o, j)` the layer's value at node `j`, output feature `o`. -/
def outT (c : Dev nD) : S64x16384.Idx → EReal := fun i =>
  Cert.GraphConv.layer (m ((c : Thread nD τ).loc main_arg0)) (m ((c : Thread nD τ).loc main_arg1)) (m ((c : Thread nD τ).loc main_arg2)) (m ((c : Thread nD τ).loc main_arg3)) (i 1) (i 0)

/-- WHAT POINT `t` WRITES BACK is block `t` of the transposed layer result. -/
theorem flushed_eq (c : Dev nD) (t : Fin cfg0.N) :
    (dats m 0 c).flushed 4 t = ((cfg0.win 4).blk t).view.read (Elt Ideal) (outT m c) := by
  show (cfg0.win 4).cut (grid0.coords t) ((dats m 0 c).after 4 t) = _
  rw [after0_4, Carried.outsAt_eq]
  obtain ⟨-, -, -, -, -, -, -, -, e0, e1⟩ := idx_facts t
  have hN : t.val < 64 := lt_of_lt_of_eq t.isLt (show cfg0.N = 64 from N_0)
  funext j
  have hj0 : (j 0).val < 64 := (j 0).isLt
  have hj1 : (j 1).val < 256 := (j 1).isLt
  have hrow : 256 * t.val + (j 1).val < 16384 := by omega
  have key := block_value (m ((c : Thread nD τ).loc main_arg0)) (m ((c : Thread nD τ).loc main_arg1)) (m ((c : Thread nD τ).loc main_arg2)) (m ((c : Thread nD τ).loc main_arg3)) (supp m c) (iblk m c 3 t) (bcol m c) ⟨256 * t.val + (j 1).val, hrow⟩ (j 0) (j 1)
    (fun n => supp_apply m c (j 0) n) (fun n => ablk m c t (j 1) n hrow) (bcol_apply m c (j 0))
  refine ((congrArg (k0_pay3 (supp m c) (iblk m c 3 t) (bcol m c)) (eq_ix2 j)).trans key).trans ?_
  show Cert.GraphConv.layer (m ((c : Thread nD τ).loc main_arg0)) (m ((c : Thread nD τ).loc main_arg1)) (m ((c : Thread nD τ).loc main_arg2)) (m ((c : Thread nD τ).loc main_arg3)) ⟨256 * t.val + (j 1).val, hrow⟩ (j 0)
    = Cert.GraphConv.layer (m ((c : Thread nD τ).loc main_arg0)) (m ((c : Thread nD τ).loc main_arg1)) (m ((c : Thread nD τ).loc main_arg2)) (m ((c : Thread nD τ).loc main_arg3)) ((((cfg0.win 4).blk t).view.emb j) 1) ((((cfg0.win 4).blk t).view.emb j) 0)
  refine congrArg₂ _ (Fin.ext ?_) (Fin.ext ?_)
  · show 256 * t.val + (j 1).val = win0_4.index t (1 : Fin 2) * 256 + 1 * (j 1).val
    rw [e1]; omega
  · show (j 0).val = win0_4.index t (0 : Fin 2) * 64 + 1 * (j 0).val
    rw [e0]; omega

/-! ## The blocks tile the array -/

/-- An index of the output array is in point `t`'s block iff each coordinate is in the block's range on its axis. -/
theorem mem_blk (t : Fin cfg0.N) (i : S64x16384.Idx) :
    i ∈ ((cfg0.win 4).blk t).view.set ↔ ∀ a : Fin 2, win0_4.index t a * S64x256.size a ≤ (i a).val ∧ (i a).val < win0_4.index t a * S64x256.size a + S64x256.size a := by
  show i ∈ ((View.whole main_call0_v2).slice (win0_4.rect t)).set ↔ _
  rw [View.set_slice_whole, Rect.mem_set_unit]
  exact Iff.rfl

/-- Every index is in the block of the point numbered by its column divided by 256. -/
theorem cover (i : S64x16384.Idx) : ∃ t : Fin cfg0.N, (cfg0.win 4).flush t = true ∧ i ∈ ((cfg0.win 4).blk t).view.set := by
  have hi0 : (i 0).val < 64 := (i 0).isLt
  have hi1 : (i 1).val < 16384 := (i 1).isLt
  have hN : cfg0.N = 64 := N_0
  obtain ⟨t, ht⟩ : ∃ t : Fin cfg0.N, t.val = (i 1).val / 256 := ⟨⟨(i 1).val / 256, by rw [hN]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 64 ≤ (i 0).val ∧ (i 0).val < win0_4.index t (0 : Fin 2) * 64 + 64
    rw [e0]; omega
  | ⟨1, _⟩ =>
    show win0_4.index t (1 : Fin 2) * 256 ≤ (i 1).val ∧ (i 1).val < win0_4.index t (1 : Fin 2) * 256 + 256
    rw [e1, ht]; omega

/-- THE OUTPUT ARRAY after the region: the transposed layer result. -/
theorem final (c : Dev nD) : (dats m 0 c).arrAt 4 cfg0.N = outT m c :=
  (dats m 0 c).arrAt_eq_of_cover 4 (outT m c) (fun t _ => flushed_eq m c t) (cover)

end Cert.KernelIdeal.Blocks

end
-- ==== Proof.KernelRun.lean ====
/-
  The idealized kernel's whole run, read: its result array is the layer's result.

  After the region the program transposes the region's output array back, so the result at `(r, o)` is the
  transposed layer result at `(o, r)` — the layer's value at node `r`, output feature `o`.
-/
import proofs.«163305_g12386685681967_cont_sun_m_1327_22_alg».proof.Proof.Blocks

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Layer

open Cert.KernelIdeal Cert.KernelIdeal.Gen Cert.KernelIdeal.Blocks

variable (m : (ℓ : Loc nD τ sig) → Buf (Elt Ideal) ℓ) (ρ : Dev nD → PrngReg)

/-- The transpose after the region, applied to the transposed layer result, is the layer's result. -/
theorem transpose_outT (c : Dev nD) :
    transpose S16384x64 [1, 0] (outT m c) transposes_S64x16384_S16384x64_1_0 = Cert.GraphConv.result (m ((c : Thread nD τ).loc main_arg0)) (m ((c : Thread nD τ).loc main_arg1)) (m ((c : Thread nD τ).loc main_arg2)) (m ((c : Thread nD τ).loc main_arg3)) := by
  funext i
  obtain ⟨r, o, rfl⟩ : ∃ (r : Fin 16384) (o : Fin 64), i = ix2 r o := ⟨i 0, i 1, eq_ix2 i⟩
  exact (transpose_ix2_apply (outT m c) _ r o).trans rfl

/-- What the program's result buffer ends holding: the layer's result. -/
theorem result_eq (c : Dev nD) :
    (Pipeline.afterTail₀ cfgs (dats m) 0 (V0 m) [hostOps1] c main_v0 : S16384x64.Idx → EReal) = Cert.GraphConv.result (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v0) = _
  after_results
  show transpose S16384x64 [1, 0] (Pipeline.withArrays (cfgs 0).spec c (V0 m c) (fun w => (dats m 0 c).arrAt w (cfgs 0).N)
    (Proc.devRef .tc main_call0_v2)) transposes_S64x16384_S16384x64_1_0 = _
  refine Eq.trans (congrArg (fun v => transpose S16384x64 [1, 0] v transposes_S64x16384_S16384x64_1_0) ?_) (transpose_outT m c)
  refine (Pipeline.withArrays_arr spec0 launch0.win.arr_inj c (V0 m c) (fun w => (dats m 0 c).arrAt w (cfgs 0).N) 4).trans ?_
  exact final m c

/-- The run, read: the result buffer at the layer's result, the four arguments unchanged. -/
theorem run : θ_run defs (onTc (τ := τ) (main (F := Ideal))) ⟨m, fun _ => 0, ρ⟩ fun r => ∀ c : Dev nD,
      r.2.mem ((c.tc : Thread nD τ).loc main_v0) = Cert.GraphConv.result (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.Layer

end
-- ==== Proof.RefValue.lean ====
/-
  The reference's result, read one operation at a time, is the layer's formula: the second `dot_general` at row
  `r`, column `o` sums `adj[r, n]` times the first one's `Σ_d x[n, d] · w[d, o]` over `n`, and the bias, broadcast
  first to one row and then over all rows, adds `bias[o]`.
-/
import proofs.«163305_g12386685681967_cont_sun_m_1327_22_alg».proof.Proof.Gen.ReferenceIdeal.Read
import proofs.«163305_g12386685681967_cont_sun_m_1327_22_alg».proof.Proof.Spec

noncomputable section

open Idealize.ShloMosaic Idealize.ShloMosaic.ValueIdx

namespace Cert.ReferenceIdeal.RefValue

open Cert.ReferenceIdeal Cert.ReferenceIdeal.Read

/-- The adjacency operand of the second product at `(r, n)`. -/
theorem adj_idx (i : S16384x64.Idx) (k : Fin 16384) : lidx_main_v1 i k = ix2 (i 0) k :=
  funext fun a => Fin.ext (by match a with | ⟨0, _⟩ => rfl | ⟨1, _⟩ => rfl)
/-- Its support operand at `(n, o)`, which the first product reads from `x` at `(n, d)` … -/
theorem x_idx (i : S16384x64.Idx) (k : Fin 16384) (d : Fin 64) : lidx_main_v0 (ridx_main_v1 i k) d = ix2 k d :=
  funext fun a => Fin.ext (by match a with | ⟨0, _⟩ => rfl | ⟨1, _⟩ => rfl)
/-- … and from `w` at `(d, o)`. -/
theorem w_idx (i : S16384x64.Idx) (k : Fin 16384) (d : Fin 64) : ridx_main_v0 (ridx_main_v1 i k) d = ix2 d (i 1) :=
  funext fun a => Fin.ext (by match a with | ⟨0, _⟩ => rfl | ⟨1, _⟩ => rfl)
/-- The twice-broadcast bias reads entry `o`. -/
theorem bias_idx (i : S16384x64.Idx) : idx_main_v2 (idx_main_v3 i) = ix1 (i 1) :=
  funext fun a => Fin.ext (by match a with | ⟨0, _⟩ => rfl)

/-- The reference's last stage is the layer's result array. -/
theorem ref_eq (x0 : (⟨S16384x64, .f32⟩ : BufTy).Contents (Elt Ideal)) (x1 : (⟨S16384x16384, .f32⟩ : BufTy).Contents (Elt Ideal))
    (x2 : (⟨S64x64, .f32⟩ : BufTy).Contents (Elt Ideal)) (x3 : (⟨S64, .f32⟩ : BufTy).Contents (Elt Ideal)) :
    val_main_v4 (F := Ideal) x0 x1 x2 x3 = Cert.GraphConv.result x0 x1 x2 x3 := by
  funext i
  rw [val_main_v4_apply, val_main_v1_apply, val_main_v3_apply, val_main_v2_apply]
  simp only [val_main_v0_apply, adj_idx, x_idx, w_idx, bias_idx]
  rfl

end Cert.ReferenceIdeal.RefValue

end
-- ==== Proof.lean ====
/-
  A graph-convolution layer, `out = adj · (x · w) + bias` with x 16384 × 64, adj 16384 × 16384, w 64 × 64 and a
  bias of 64 entries: a fused kernel against the plain formula, equal on the extended reals.

  The kernel works in the transposed domain. At the first of its 64 grid points it computes the transposed support
  `sT[o, n] = Σ_d w[d, o] · x[n, d]` into a scratch buffer (narrowed to a short float format, which on the
  extended reals is the identity) and the bias as a column into another; both are carried unchanged through the
  later points. At point `t` it multiplies `sT` by rows `256·t … 256·t + 255` of the adjacency matrix, contracting
  over the node index, adds the bias column, and writes columns `256·t … 256·t + 255` of the transposed result;
  the 64 column blocks tile it, and a final transpose gives `out[r, o] = Σ_n sT[o, n] · adj[r, n] + bias[o]`.

  The reference computes `Σ_n adj[r, n] · (Σ_d x[n, d] · w[d, o]) + bias[o]`. The two differ only in the order of
  the factors inside each product, and the product of extended reals commutes at every value, the infinities
  included — so the sums agree term by term, and the precondition that the inputs are finite is never used.

  The three frames are the generated ones (the reference's is its generated run with the result dropped); the ideal
  pass rewrote nothing, so the idealization conjunct is `True`; the value conjunct pairs the kernel's run, read
  as the layer's result (Proof/KernelRun.lean over Proof/Blocks.lean, Proof/Carried.lean, Proof/Pieces.lean and
  Proof/Payloads.lean), with the reference's generated run, read as the same function (Proof/RefValue.lean), both
  stated over the one formula of Proof/Spec.lean.
-/
import proofs.«163305_g12386685681967_cont_sun_m_1327_22_alg».proof.Defs
import proofs.«163305_g12386685681967_cont_sun_m_1327_22_alg».proof.Proof.Gen.Kernel
import proofs.«163305_g12386685681967_cont_sun_m_1327_22_alg».proof.Proof.Gen.Kernel.Skeleton
import proofs.«163305_g12386685681967_cont_sun_m_1327_22_alg».proof.Proof.Gen.Kernel.Launch
import proofs.«163305_g12386685681967_cont_sun_m_1327_22_alg».proof.Proof.Gen.Kernel.Points
import proofs.«163305_g12386685681967_cont_sun_m_1327_22_alg».proof.Proof.Gen.Kernel.Frame
import proofs.«163305_g12386685681967_cont_sun_m_1327_22_alg».proof.Proof.Gen.KernelIdeal
import proofs.«163305_g12386685681967_cont_sun_m_1327_22_alg».proof.Proof.Gen.KernelIdeal.Skeleton
import proofs.«163305_g12386685681967_cont_sun_m_1327_22_alg».proof.Proof.Gen.KernelIdeal.Launch
import proofs.«163305_g12386685681967_cont_sun_m_1327_22_alg».proof.Proof.Gen.KernelIdeal.Points
import proofs.«163305_g12386685681967_cont_sun_m_1327_22_alg».proof.Proof.Gen.KernelIdeal.Frame
import proofs.«163305_g12386685681967_cont_sun_m_1327_22_alg».proof.Proof.Gen.ReferenceIdeal
import proofs.«163305_g12386685681967_cont_sun_m_1327_22_alg».proof.Proof.Gen.ReferenceIdeal.Run
import proofs.«163305_g12386685681967_cont_sun_m_1327_22_alg».proof.Proof.Gen.ReferenceIdeal.Read
import proofs.«163305_g12386685681967_cont_sun_m_1327_22_alg».proof.Proof.Gen.Pre_finite_inputs
import proofs.«163305_g12386685681967_cont_sun_m_1327_22_alg».proof.Proof.KernelRun
import proofs.«163305_g12386685681967_cont_sun_m_1327_22_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals both programs end with the layer's result of arguments that agree: the kernel's run
    read through its blocks and carried scratch, the reference's read one operation at a time. -/
theorem algebraic : Cert.algebraic_KernelIdeal_ReferenceIdeal := by
  intro m ρ m' ρ' _ hagree
  refine ⟨fun c => Cert.GraphConv.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
